-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16x128 : Shape := ⟨3, ![4096, 16, 128]⟩
abbrev S4096x1024 : Shape := ⟨2, ![4096, 1024]⟩
abbrev S128x1024 : Shape := ⟨2, ![128, 1024]⟩
abbrev S128 : Shape := ⟨1, ![128]⟩
abbrev S1024x1024 : Shape := ⟨2, ![1024, 1024]⟩
abbrev S1024 : Shape := ⟨1, ![1024]⟩
abbrev S1024x128 : Shape := ⟨2, ![1024, 128]⟩
abbrev S128x128 : Shape := ⟨2, ![128, 128]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S1024 .f32) (main_arg8 : FVec F S128x128 .f32) (main_arg9 : FVec F S128 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x128 .f32) (main_arg7 : FVec F S1024 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x128 .f32 := Host.absf main_arg6
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x16x128 .f32) (main_arg1 : FVec F S4096x1024 .f32) (main_arg2 : FVec F S128x1024 .f32) (main_arg3 : FVec F S128 .f32) (main_arg4 : FVec F S1024x1024 .f32) (main_arg5 : FVec F S1024 .f32) (main_arg6 : FVec F S1024x128 .f32) (main_arg7 : FVec F S1024 .f32) (main_arg8 : FVec F S128x128 .f32) (main_arg9 : FVec F S128 .f32) : IVec S_ 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_c : IVec S_ 1 := constantI S_ 1 1#1
  let main_v3 : IVec S_ 1 := (fun x v => Host.reduce IntOp.andi x v reducesTo_S4096x16x128_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S4096x16x128 : Shape := ⟨3, ![4096, 16, 128]⟩
abbrev S4096x1024 : Shape := ⟨2, ![4096, 1024]⟩
abbrev S128x1024 : Shape := ⟨2, ![128, 1024]⟩
abbrev S128 : Shape := ⟨1, ![128]⟩
abbrev S1024x1024 : Shape := ⟨2, ![1024, 1024]⟩
abbrev S1024 : Shape := ⟨1, ![1024]⟩
abbrev S1024x128 : Shape := ⟨2, ![1024, 128]⟩
abbrev S128x128 : Shape := ⟨2, ![128, 128]⟩
abbrev S1x1024 : Shape := ⟨2, ![1, 1024]⟩
abbrev S1x128 : Shape := ⟨2, ![1, 128]⟩
abbrev S256x16x128 : Shape := ⟨3, ![256, 16, 128]⟩
abbrev S256x1024 : Shape := ⟨2, ![256, 1024]⟩
abbrev S256x128 : Shape := ⟨2, ![256, 128]⟩
abbrev S4096x128 : Shape := ⟨2, ![4096, 128]⟩
abbrev S256x1x128 : Shape := ⟨3, ![256, 1, 128]⟩

abbrev nBuf : Space → Nat
  | .hbm => 24
  | .vmem => 16
  | .smem => 0
  | _ => 0

abbrev bufTy : (tb : Table) → Fin (tcTables nBuf tb) → BufTy
  | .hbm, ⟨0, _⟩ => ⟨S4096x16x128, .f32⟩
  | .hbm, ⟨1, _⟩ => ⟨S4096x1024, .f32⟩
  | .hbm, ⟨2, _⟩ => ⟨S128x1024, .f32⟩
  | .hbm, ⟨3, _⟩ => ⟨S128, .f32⟩
  | .hbm, ⟨4, _⟩ => ⟨S1024x1024, .f32⟩
  | .hbm, ⟨5, _⟩ => ⟨S1024, .f32⟩
  | .hbm, ⟨6, _⟩ => ⟨S1024x128, .f32⟩
  | .hbm, ⟨7, _⟩ => ⟨S1024, .f32⟩
  | .hbm, ⟨8, _⟩ => ⟨S128x128, .f32⟩
  | .hbm, ⟨9, _⟩ => ⟨S128, .f32⟩
  | .hbm, ⟨10, _⟩ => ⟨S1024x1024, .f32⟩
  | .hbm, ⟨11, _⟩ => ⟨S1024x1024, .bf16⟩
  | .hbm, ⟨12, _⟩ => ⟨S1024x128, .f32⟩
  | .hbm, ⟨13, _⟩ => ⟨S1024x128, .bf16⟩
  | .hbm, ⟨14, _⟩ => ⟨S128x1024, .f32⟩
  | .hbm, ⟨15, _⟩ => ⟨S128x1024, .bf16⟩
  | .hbm, ⟨16, _⟩ => ⟨S128x128, .f32⟩
  | .hbm, ⟨17, _⟩ => ⟨S128x128, .bf16⟩
  | .hbm, ⟨18, _⟩ => ⟨S1x1024, .f32⟩
  | .hbm, ⟨19, _⟩ => ⟨S1x128, .f32⟩
  | .hbm, ⟨20, _⟩ => ⟨S1x1024, .f32⟩
  | .hbm, ⟨21, _⟩ => ⟨S1x128, .f32⟩
  | .hbm, ⟨22, _⟩ => ⟨S4096x16x128, .f32⟩
  | .hbm, ⟨23, _⟩ => ⟨S4096x1024, .f32⟩
  | .local _ .vmem, ⟨0, _⟩ => ⟨S256x16x128, .f32⟩
  | .local _ .vmem, ⟨1, _⟩ => ⟨S256x16x128, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x128, .bf16⟩
  | .local _ .vmem, ⟨6, _⟩ => ⟨S128x1024, .bf16⟩
  | .local _ .vmem, ⟨7, _⟩ => ⟨S128x128, .bf16⟩
  | .local _ .vmem, ⟨8, _⟩ => ⟨S1x1024, .f32⟩
  | .local _ .vmem, ⟨9, _⟩ => ⟨S1x128, .f32⟩
  | .local _ .vmem, ⟨10, _⟩ => ⟨S1x1024, .f32⟩
  | .local _ .vmem, ⟨11, _⟩ => ⟨S1x128, .f32⟩
  | .local _ .vmem, ⟨12, _⟩ => ⟨S256x16x128, .f32⟩
  | .local _ .vmem, ⟨13, _⟩ => ⟨S256x16x128, .f32⟩
  | .local _ .vmem, ⟨14, _⟩ => ⟨S256x1024, .f32⟩
  | .local _ .vmem, ⟨15, _⟩ => ⟨S256x1024, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S1024x1024_S1024x1024_1_0 : S1024x1024.Transposes [1, 0] S1024x1024
  bitsLt_bf16_f32 : FTy.bits .bf16 < FTy.bits .f32
  transposes_S128x1024_S1024x128_1_0 : S128x1024.Transposes [1, 0] S1024x128
  transposes_S1024x128_S128x1024_1_0 : S1024x128.Transposes [1, 0] S128x1024
  transposes_S128x128_S128x128_1_0 : S128x128.Transposes [1, 0] S128x128
  shapeCasts_S1024_S1x1024 : S1024.ShapeCasts S1x1024
  shapeCasts_S128_S1x128 : S128.ShapeCasts S1x128
  inb_S256x16x128_S256x16x128_0_0_0 : ∀ a, (![0, 0, 0] : Fin 3 → Nat) a + S256x16x128.size a ≤ S256x16x128.size a
  h_S256x16x128 : 0 < S256x16x128.numel
  inb_S256x1024_S256x1024_0_0 : ∀ a, (![0, 0] : Fin 2 → Nat) a + S256x1024.size a ≤ S256x1024.size a
  h_S256x1024 : 0 < S256x1024.numel
  reduces_S256x16x128_S256x128 : S256x16x128.Reduces [1] S256x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x1024_S256x1024 : S1x1024.Broadcasts S256x1024
  broadcasts_S1x128_S256x128 : S1x128.Broadcasts S256x128
  shapeCasts_S256x16x128_S4096x128 : S256x16x128.ShapeCasts S4096x128
  broadcasts_S1x128_S4096x128 : S1x128.Broadcasts S4096x128
  shapeCasts_S4096x128_S256x16x128 : S4096x128.ShapeCasts S256x16x128
  shapeCasts_S256x128_S256x1x128 : S256x128.ShapeCasts S256x1x128
  shapeCasts_S256x1x128_S256x1x128 : S256x1x128.ShapeCasts S256x1x128
  broadcasts_S256x1x128_S256x16x128 : S256x1x128.Broadcasts S256x16x128
  dot_S256x1024_S1024x1024_S256x1024_1_0_0_1_n_n_wf : DotDims.WF S256x1024 S1024x1024 S256x1024 [1] [0] [0] [1] [] []
  dot_S256x1024_S1024x128_S256x128_1_0_0_1_n_n_wf : DotDims.WF S256x1024 S1024x128 S256x128 [1] [0] [0] [1] [] []
  dot_S256x128_S128x1024_S256x1024_1_0_0_1_n_n_wf : DotDims.WF S256x128 S128x1024 S256x1024 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x128.size a ≤ S4096x16x128.size a
  hwx0_0 : ∀ i : grid0.Coords, EltTy.bits .f32 = 32 ∨ (Rect.block (s := S4096x16x128) S256x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .bf16 = 32 ∨ (Rect.block (s := S128x1024) S128x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x16x128.size a ≤ S4096x16x128.size a
  hwx0_10 : ∀ i : grid0.Coords, EltTy.bits .f32 = 32 ∨ (Rect.block (s := S4096x16x128) S256x16x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S4096x1024.size a
  hwx0_11 : ∀ i : grid0.Coords, EltTy.bits .f32 = 32 ∨ (Rect.block (s := S4096x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S256x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S256x16x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x16x128 : Shape := ⟨3, ![4096, 16, 128]⟩
abbrev S4096x1024 : Shape := ⟨2, ![4096, 1024]⟩
abbrev S128x1024 : Shape := ⟨2, ![128, 1024]⟩
abbrev S128 : Shape := ⟨1, ![128]⟩
abbrev S1024x1024 : Shape := ⟨2, ![1024, 1024]⟩
abbrev S1024 : Shape := ⟨1, ![1024]⟩
abbrev S1024x128 : Shape := ⟨2, ![1024, 128]⟩
abbrev S128x128 : Shape := ⟨2, ![128, 128]⟩
abbrev S_ : Shape := ⟨0, ![]⟩
abbrev S4096x128 : Shape := ⟨2, ![4096, 128]⟩
abbrev S1x1024 : Shape := ⟨2, ![1, 1024]⟩
abbrev S1x128 : Shape := ⟨2, ![1, 128]⟩
abbrev S1x1x128 : Shape := ⟨3, ![1, 1, 128]⟩
abbrev S4096x1x128 : Shape := ⟨3, ![4096, 1, 128]⟩

abbrev nBuf : Space → Nat
  | .hbm => 102
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x1024, .f32⟩
  | .hbm, ⟨2, _⟩ => ⟨S128x1024, .f32⟩
  | .hbm, ⟨3, _⟩ => ⟨S128, .f32⟩
  | .hbm, ⟨4, _⟩ => ⟨S1024x1024, .f32⟩
  | .hbm, ⟨5, _⟩ => ⟨S1024, .f32⟩
  | .hbm, ⟨6, _⟩ => ⟨S1024x128, .f32⟩
  | .hbm, ⟨7, _⟩ => ⟨S1024, .f32⟩
  | .hbm, ⟨8, _⟩ => ⟨S128x128, .f32⟩
  | .hbm, ⟨9, _⟩ => ⟨S128, .f32⟩
  | .hbm, ⟨10, _⟩ => ⟨S_, .f32⟩
  | .hbm, ⟨11, _⟩ => ⟨S4096x128, .f32⟩
  | .hbm, ⟨12, _⟩ => ⟨S_, .f32⟩
  | .hbm, ⟨13, _⟩ => ⟨S4096x128, .f32⟩
  | .hbm, ⟨14, _⟩ => ⟨S4096x128, .f32⟩
  | .hbm, ⟨15, _⟩ => ⟨S1024x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .i1⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1024x128, .f32⟩
  | .hbm, ⟨37, _⟩ => ⟨S4096x128, .f32⟩
  | .hbm, ⟨38, _⟩ => ⟨S1x128, .f32⟩
  | .hbm, ⟨39, _⟩ => ⟨S4096x128, .f32⟩
  | .hbm, ⟨40, _⟩ => ⟨S4096x128, .f32⟩
  | .hbm, ⟨41, _⟩ => ⟨S_, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S4096x128, .i1⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S4096x128, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S4096x128, .f32⟩
  | .hbm, ⟨55, _⟩ => ⟨S4096x128, .f32⟩
  | .hbm, ⟨56, _⟩ => ⟨S4096x128, .f32⟩
  | .hbm, ⟨57, _⟩ => ⟨S128x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .i1⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x16x128, .f32⟩
  | .hbm, ⟨79, _⟩ => ⟨S1x1x128, .f32⟩
  | .hbm, ⟨80, _⟩ => ⟨S4096x16x128, .f32⟩
  | .hbm, ⟨81, _⟩ => ⟨S4096x16x128, .f32⟩
  | .hbm, ⟨82, _⟩ => ⟨S_, .f32⟩
  | .hbm, ⟨83, _⟩ => ⟨S4096x16x128, .f32⟩
  | .hbm, ⟨84, _⟩ => ⟨S4096x16x128, .f32⟩
  | .hbm, ⟨85, _⟩ => ⟨S4096x16x128, .f32⟩
  | .hbm, ⟨86, _⟩ => ⟨S4096x16x128, .f32⟩
  | .hbm, ⟨87, _⟩ => ⟨S4096x16x128, .i1⟩
  | .hbm, ⟨88, _⟩ => ⟨S4096x16x128, .f32⟩
  | .hbm, ⟨89, _⟩ => ⟨S4096x16x128, .f32⟩
  | .hbm, ⟨90, _⟩ => ⟨S4096x16x128, .f32⟩
  | .hbm, ⟨91, _⟩ => ⟨S4096x16x128, .f32⟩
  | .hbm, ⟨92, _⟩ => ⟨S4096x16x128, .f32⟩
  | .hbm, ⟨93, _⟩ => ⟨S4096x16x128, .f32⟩
  | .hbm, ⟨94, _⟩ => ⟨S4096x16x128, .f32⟩
  | .hbm, ⟨95, _⟩ => ⟨S4096x16x128, .f32⟩
  | .hbm, ⟨96, _⟩ => ⟨S4096x16x128, .f32⟩
  | .hbm, ⟨97, _⟩ => ⟨S4096x16x128, .f32⟩
  | .hbm, ⟨98, _⟩ => ⟨S4096x1024, .f32⟩
  | .hbm, ⟨99, _⟩ => ⟨S4096x1x128, .f32⟩
  | .hbm, ⟨100, _⟩ => ⟨S4096x16x128, .f32⟩
  | .hbm, ⟨101, _⟩ => ⟨S4096x16x128, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_call3_cst : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩

abbrev nD : Nat := 1
abbrev τ : Topo := Topo.v7x

variable {F : FTy → Type} [FloatOps F]

class Facts₀ : Prop where
  reducesTo_S4096x16x128_S4096x128_d1 : S4096x16x128.ReducesTo [1] S4096x128
  h_S_ : 0 < S_.numel
  bcast_S_S4096x128 : S_.BroadcastsInDim S4096x128 (![] : Fin 0 → Fin S4096x128.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S128x1024_S1024x128_1_0 : S128x1024.Transposes [1, 0] S1024x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  transposes_S1024x128_S128x1024_1_0 : S1024x128.Transposes [1, 0] S128x1024
  bcast_S128_S1x1x128_2 : S128.BroadcastsInDim S1x1x128 (![2] : Fin 1 → Fin S1x1x128.rank)
  bcast_S1x1x128_S4096x16x128_0_1_2 : S1x1x128.BroadcastsInDim S4096x16x128 (![0, 1, 2] : Fin 3 → Fin S4096x16x128.rank)
  bcast_S_S4096x16x128 : S_.BroadcastsInDim S4096x16x128 (![] : Fin 0 → Fin S4096x16x128.rank)
  bcast_S4096x128_S4096x1x128_0_2 : S4096x128.BroadcastsInDim S4096x1x128 (![0, 2] : Fin 2 → Fin S4096x1x128.rank)
  bcast_S4096x1x128_S4096x16x128_0_1_2 : S4096x1x128.BroadcastsInDim S4096x16x128 (![0, 1, 2] : Fin 3 → Fin S4096x16x128.rank)
  dot_S4096x1024_S1024x1024_S4096x1024_1_0_0_1_n_n_wf : DotDims.WF S4096x1024 S1024x1024 S4096x1024 [1] [0] [0] [1] [] []
  dot_S4096x1024_S1024x128_S4096x128_1_0_0_1_n_n_wf : DotDims.WF S4096x1024 S1024x128 S4096x128 [1] [0] [0] [1] [] []
  dot_S4096x128_S128x1024_S4096x1024_1_0_0_1_n_n_wf : DotDims.WF S4096x128 S128x1024 S4096x1024 [1] [0] [0] [1] [] []
  dot_S4096x16x128_S128x128_S4096x16x128_2_1_01_0_n_n_wf : DotDims.WF S4096x16x128 S128x128 S4096x16x128 [2] [1] [0, 1] [0] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf
def dot_S4096x16x128_S128x128_S4096x16x128_2_1_01_0_n_n : DotDims S4096x16x128 S128x128 S4096x16x128 where
  lhsContracting := [2]
  rhsContracting := [1]
  lhsNonContracting := [0, 1]
  rhsNonContracting := [0]
  lhsBatch := []
  rhsBatch := []
  wf := dot_S4096x16x128_S128x128_S4096x16x128_2_1_01_0_n_n_wf

class Facts : Prop extends Facts₀ where

variable [Facts]
-- ==== Proof.Layer.lean ====
/-
  The layer both programs compute, as functions of the ten argument arrays, index by index, on the extended reals.

  Arguments (shapes literal): the per-group features `bb : [4096, 16, 128]`, the per-row features `rf : [4096, 1024]`,
  and four affine maps given as weight matrices stored output-major (`w[o, k]`) with their bias vectors:
  `rf → rf` (`[1024, 1024]`, `[1024]`), `rf → bb` (`[128, 1024]`, `[128]`), `bb → rf` (`[1024, 128]`, `[1024]`) and
  `bb → bb` (`[128, 128]`, `[128]`).

  With `mish z = z · tanh (softplus z)` and `softplus z = max z 0 + log1p (exp (-|z|))`:
    newRF[b, o]    = mish (∑ₖ rf[b, k] · Wrr[o, k] + brr[o]) + mish (∑ₖ mean[b, k] · Wbr[o, k] + bbr[o]),
                     mean[b, k] = (∑_g bb[b, g, k]) / 16,
    newBB[b, g, o] = mish (∑ᵢ bb[b, g, i] · Wbb[o, i] + bbb[o]) + mish (∑ₖ rf[b, k] · Wrb[o, k] + brb[o]).
  The second summand of `newBB` does not depend on the group `g`: it is repeated along that axis.

  Also here: the two spellings of `softplus` the programs print (jax's `logaddexp z 0`, with its guard `z - 0 ≠ z - 0`
  that never fires on the extended reals, and `-|·|` written either as a negation or as `0 - |·|`) are this `softplus`.
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx

/-- `log (1 + eᶻ)` in the overflow-free form `max z 0 + log1p (exp (-|z|))`, with `|z| = max z (-z)`. -/
def softplus (z : EReal) : EReal := max z 0 + Ideal.log1p (Ideal.exp (-(max z (-z))))

/-- `z · tanh (softplus z)`. -/
def mish (z : EReal) : EReal := z * Ideal.tanh (softplus z)

/-- On the extended reals nothing differs from itself, so a comparison "not equal" of a value with itself answers 0. -/
theorem cmp_one_self (x : EReal) : Ideal.cmp .one x x = 0#1 := by
  simp [Ideal.cmp]

theorem cmp_une_self (x : EReal) : Ideal.cmp .une x x = 0#1 := by
  simp [Ideal.cmp]

/-- The kernel's spelling of `mish`: the guard compares `z - 0` with itself, the guarded branch is `z + 0`, and the
    negated absolute value is `0 - |z - 0|`. -/
theorem mish_guard_sub (z : Ideal .f32) :
    FloatOps.mulf (F := Ideal) (φ := .f32) z (FloatOps.tanh (Scalar.select
        (FloatOps.cmpf .one (FloatOps.subf z (Scalar.ofBits .f32 0x00000000#32)) (FloatOps.subf z (Scalar.ofBits .f32 0x00000000#32)))
        (FloatOps.addf z (Scalar.ofBits .f32 0x00000000#32))
        (FloatOps.addf (FloatOps.maximumf z (Scalar.ofBits .f32 0x00000000#32))
          (FloatOps.log1p (FloatOps.exp (FloatOps.subf (Scalar.ofBits .f32 0x00000000#32)
            (FloatOps.absf (FloatOps.subf z (Scalar.ofBits .f32 0x00000000#32)))))))))
      = mish z := by
  have hs : Scalar.ofBits (F := Ideal) .f32 0x00000000#32 = (0 : EReal) := Ideal.ofBits_zero_f32
  rw [hs]
  simp only [Ideal.mulf_def, Ideal.tanh_def, Ideal.cmpf_def, Ideal.subf_def, Ideal.addf_def, Ideal.maximumf_def,
    Ideal.log1p_def, Ideal.exp_def, Ideal.absf_def, sub_zero, zero_sub, cmp_one_self, select_zero]
  rfl

/-- The reference's spelling: the same guard as an unordered comparison, and the negation written as such. -/
theorem mish_guard_neg (z : Ideal .f32) :
    FloatOps.mulf (F := Ideal) (φ := .f32) z (FloatOps.hostUnary .tanh (Scalar.select
        (FloatOps.cmpf .une (FloatOps.subf z (FloatOps.ofBits .f32 0x00000000#32)) (FloatOps.subf z (FloatOps.ofBits .f32 0x00000000#32)))
        (FloatOps.addf z (FloatOps.ofBits .f32 0x00000000#32))
        (FloatOps.addf (FloatOps.maximumf z (FloatOps.ofBits .f32 0x00000000#32))
          (FloatOps.hostUnary .log1p (FloatOps.hostUnary .exp (FloatOps.hostNegf
            (FloatOps.hostAbsf (FloatOps.subf z (FloatOps.ofBits .f32 0x00000000#32)))))))))
      = mish z := by
  have hs : FloatOps.ofBits (F := Ideal) .f32 0x00000000#32 = (0 : EReal) := Ideal.ofBits_zero_f32
  rw [hs]
  simp only [Ideal.mulf_def, Ideal.hostUnary_tanh_def, Ideal.cmpf_def, Ideal.subf_def, Ideal.addf_def, Ideal.maximumf_def,
    Ideal.hostUnary_log1p_def, Ideal.hostUnary_exp_def, Ideal.hostNegf_def, Ideal.hostAbsf_def, Ideal.negf_def,
    Ideal.absf_def, sub_zero, cmp_une_self, select_zero]
  rfl

section Maps

variable (bb : FVec Ideal ⟨3, ![4096, 16, 128]⟩ .f32) (rf : FVec Ideal ⟨2, ![4096, 1024]⟩ .f32)
  (wrb : FVec Ideal ⟨2, ![128, 1024]⟩ .f32) (brb : FVec Ideal ⟨1, ![128]⟩ .f32)
  (wrr : FVec Ideal ⟨2, ![1024, 1024]⟩ .f32) (brr : FVec Ideal ⟨1, ![1024]⟩ .f32)
  (wbr : FVec Ideal ⟨2, ![1024, 128]⟩ .f32) (bbr : FVec Ideal ⟨1, ![1024]⟩ .f32)
  (wbb : FVec Ideal ⟨2, ![128, 128]⟩ .f32) (bbb : FVec Ideal ⟨1, ![128]⟩ .f32)

/-- The mean of row `b`'s sixteen groups at feature `k`. -/
def groupMean (b : Fin 4096) (k : Fin 128) : EReal :=
  Ideal.div (∑ g : Fin 16, bb (ix3 b g k)) (Ideal.ofBits .f32 0x41800000#32)

/-- `rf → rf`: row `b` of `rf` against row `o` of the weights, plus the bias. -/
def rfToRf (b : Fin 4096) (o : Fin 1024) : EReal := (∑ k : Fin 1024, rf (ix2 b k) * wrr (ix2 o k)) + brr (ix1 o)

/-- `rf → bb`. -/
def rfToBb (b : Fin 4096) (o : Fin 128) : EReal := (∑ k : Fin 1024, rf (ix2 b k) * wrb (ix2 o k)) + brb (ix1 o)

/-- `bb → rf`, of the group mean. -/
def bbToRf (b : Fin 4096) (o : Fin 1024) : EReal := (∑ k : Fin 128, groupMean bb b k * wbr (ix2 o k)) + bbr (ix1 o)

/-- `bb → bb`, group by group. -/
def bbToBb (b : Fin 4096) (g : Fin 16) (o : Fin 128) : EReal := (∑ i : Fin 128, bb (ix3 b g i) * wbb (ix2 o i)) + bbb (ix1 o)

/-- The new per-row features. -/
def newRF : FVec Ideal ⟨2, ![4096, 1024]⟩ .f32 := fun i =>
  mish (rfToRf rf wrr brr (i 0) (i 1)) + mish (bbToRf bb wbr bbr (i 0) (i 1))

/-- The new per-group features. -/
def newBB : FVec Ideal ⟨3, ![4096, 16, 128]⟩ .f32 := fun i =>
  mish (bbToBb bb wbb bbb (i 0) (i 1) (i 2)) + mish (rfToBb rf wrb brb (i 0) (i 2))

end Maps

end Cert.Layer

end
-- ==== Proof.RefLayer.lean ====
/-
  The reference program's two results are the layer's `newBB` and `newRF` of its arguments.

  Read one operation at a time: each of the four branches is an affine map followed by `mish` (in the reference's
  spelling of `softplus`, whose guard never fires on the extended reals), a matrix product against a transposed weight
  matrix reads the weights output-major, the mean is the sum over the sixteen groups (from an initial value of zero)
  divided by sixteen, and the branch that does not depend on the group is repeated along the group axis.
-/
import proofs.«107412_j8873402433731_1_alg».proof.Proof.Gen.ReferenceIdeal.Read
import proofs.«107412_j8873402433731_1_alg».proof.Proof.Layer
import Idealize.ShloMosaic.Lib.ValueIdx
import Idealize.ShloMosaic.PureOps.Ideal.Laws

noncomputable section

namespace Cert.RefLayer

open Cert.ReferenceIdeal Cert.ReferenceIdeal.Read Cert.Layer
open Idealize.ShloMosaic Idealize.ShloMosaic.ValueIdx

variable (x0 : FVec Ideal S4096x16x128 .f32) (x1 : FVec Ideal S4096x1024 .f32) (x2 : FVec Ideal S128x1024 .f32)
  (x3 : FVec Ideal S128 .f32) (x4 : FVec Ideal S1024x1024 .f32) (x5 : FVec Ideal S1024 .f32)
  (x6 : FVec Ideal S1024x128 .f32) (x7 : FVec Ideal S1024 .f32) (x8 : FVec Ideal S128x128 .f32) (x9 : FVec Ideal S128 .f32)

/-! ## Each branch's gate is `mish` of its affine part -/

theorem gate_rr (i : S4096x1024.Idx) :
    val_main_v10 (F := Ideal) x1 x4 x5 i = mish (val_main_v7 (F := Ideal) x1 x4 x5 i) :=
  mish_guard_neg (val_main_v7 (F := Ideal) x1 x4 x5 i)

theorem gate_rb (i : S4096x128.Idx) :
    val_main_v18 (F := Ideal) x1 x2 x3 i = mish (val_main_v15 (F := Ideal) x1 x2 x3 i) :=
  mish_guard_neg (val_main_v15 (F := Ideal) x1 x2 x3 i)

theorem gate_br (i : S4096x1024.Idx) :
    val_main_v26 (F := Ideal) x0 x6 x7 i = mish (val_main_v23 (F := Ideal) x0 x6 x7 i) :=
  mish_guard_neg (val_main_v23 (F := Ideal) x0 x6 x7 i)

theorem gate_bb (i : S4096x16x128.Idx) :
    val_main_v33 (F := Ideal) x0 x8 x9 i = mish (val_main_v30 (F := Ideal) x0 x8 x9 i) :=
  mish_guard_neg (val_main_v30 (F := Ideal) x0 x8 x9 i)

/-! ## The affine parts -/

/-- `rf → rf`: the product against the transposed weights reads them output-major. -/
theorem affine_rr (i : S4096x1024.Idx) :
    val_main_v7 (F := Ideal) x1 x4 x5 i = rfToRf x1 x4 x5 (i 0) (i 1) := by
  rw [val_main_v7_apply, val_main_v4_apply, val_main_v6_apply, val_main_v5_apply]
  unfold rfToRf
  refine congrArg₂ (· + ·) (Finset.sum_congr rfl fun k _ => ?_) ?_
  · rw [val_main_v3_apply]
    refine congrArg₂ (· * ·) (congrArg x1 ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x5 (funext fun a => Fin.ext (by match a with | ⟨0, _⟩ => rfl))

/-- `rf → bb`. -/
theorem affine_rb (i : S4096x128.Idx) :
    val_main_v15 (F := Ideal) x1 x2 x3 i = rfToBb x1 x2 x3 (i 0) (i 1) := by
  rw [val_main_v15_apply, val_main_v12_apply, val_main_v14_apply, val_main_v13_apply]
  unfold rfToBb
  refine congrArg₂ (· + ·) (Finset.sum_congr rfl fun k _ => ?_) ?_
  · rw [val_main_v11_apply]
    refine congrArg₂ (· * ·) (congrArg x1 ?_) (congrArg x2 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x3 (funext fun a => Fin.ext (by match a with | ⟨0, _⟩ => rfl))

/-- The mean over the groups: the sum starts from zero. -/
theorem mean_apply (j : S4096x128.Idx) :
    val_main_v2 (F := Ideal) x0 j = groupMean x0 (j 0) (j 1) := by
  rw [val_main_v2_apply, val_main_v0_apply, val_main_v1_apply]
  unfold groupMean
  show Ideal.div (Ideal.ofBits .f32 0x00000000#32 + _) (Ideal.ofBits .f32 0x41800000#32) = _
  rw [Ideal.ofBits_zero_f32, zero_add]
  refine congrArg (Ideal.div · _) (Finset.sum_congr rfl fun g _ => congrArg x0 ?_)
  exact funext fun a => Fin.ext (by match a with | ⟨0, _⟩ => rfl | ⟨1, _⟩ => rfl | ⟨2, _⟩ => rfl)

/-- `bb → rf`, of the mean. -/
theorem affine_br (i : S4096x1024.Idx) :
    val_main_v23 (F := Ideal) x0 x6 x7 i = bbToRf x0 x6 x7 (i 0) (i 1) := by
  rw [val_main_v23_apply, val_main_v20_apply, val_main_v22_apply, val_main_v21_apply]
  unfold bbToRf
  refine congrArg₂ (· + ·) (Finset.sum_congr rfl fun k _ => ?_) ?_
  · rw [val_main_v19_apply, mean_apply]
    refine congrArg₂ (· * ·) rfl (congrArg x6 ?_)
    exact funext fun a => Fin.ext (by match a with | ⟨0, _⟩ => rfl | ⟨1, _⟩ => rfl)
  · exact congrArg x7 (funext fun a => Fin.ext (by match a with | ⟨0, _⟩ => rfl))

/-- `bb → bb`: the contraction runs over the feature axis of each group. -/
theorem affine_bb (i : S4096x16x128.Idx) :
    val_main_v30 (F := Ideal) x0 x8 x9 i = bbToBb x0 x8 x9 (i 0) (i 1) (i 2) := by
  rw [val_main_v30_apply, val_main_v27_apply, val_main_v29_apply, val_main_v28_apply]
  unfold bbToBb
  refine congrArg₂ (· + ·) (Finset.sum_congr rfl fun k _ => ?_) ?_
  · refine congrArg₂ (· * ·) (congrArg x0 ?_) (congrArg x8 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x9 (funext fun a => Fin.ext (by match a with | ⟨0, _⟩ => rfl))

/-! ## The two results -/

theorem newRF_eq : val_main_v34 (F := Ideal) x0 x1 x4 x5 x6 x7 = newRF x0 x1 x4 x5 x6 x7 := by
  funext i
  rw [val_main_v34_apply, gate_rr, gate_br, affine_rr, affine_br]
  rfl

theorem newBB_eq : val_main_v37 (F := Ideal) x0 x1 x2 x3 x8 x9 = newBB x0 x1 x2 x3 x8 x9 := by
  funext i
  rw [val_main_v37_apply, gate_bb, affine_bb, val_main_v36_apply, val_main_v35_apply, gate_rb, affine_rb]
  rfl

end Cert.RefLayer

end
-- ==== Proof.LibStretch.lean ====
/-
  A rank-2 array repeated along a new axis of a rank-3 shape, read at an index.

  Two forms, general in the extents and in the element type: an [a, b] array given a TRAILING unit axis and repeated
  along it to [a, b, n] reads at (i, j, k) its entry (i, j); an [a, n] array given a MIDDLE unit axis and repeated
  along it to [a, b, n] reads at (i, j, k) its entry (i, k). (What `v[:, :, None]` and `v[:, None, :]` broadcast
  against a rank-3 block lower to: a shape cast that inserts the unit axis, then a broadcast.) In each the unit
  axis adds nothing to the row-major position, and the broadcast reads coordinate 0 on it.
-/
import Idealize.ShloMosaic.Lib.Pipeline.Value
import Idealize.ShloMosaic.Lib.ValueIdx

noncomputable section

namespace Cert.LibStretch

open Idealize.ShloMosaic Idealize.ShloMosaic.ValueIdx

section Stretch
variable {α : Type}

/-- An `[a, b]` array given a trailing unit axis and repeated along it to `[a, b, n]` reads, at `(i, j, k)`, the
    operand at `(i, j)`: the unit axis contributes nothing to the row-major position, and the broadcast reads `0` on it. -/
theorem stretchLast_apply {a b n : ℕ} (v : (⟨2, ![a, b]⟩ : Shape).Idx → α)
    (h : (⟨2, ![a, b]⟩ : Shape).ShapeCasts ⟨3, ![a, b, 1]⟩)
    (h' : (⟨3, ![a, b, 1]⟩ : Shape).Broadcasts ⟨3, ![a, b, n]⟩) (i : Fin a) (j : Fin b) (k : Fin n) :
    broadcastTo ⟨3, ![a, b, n]⟩ (shapeCast ⟨3, ![a, b, 1]⟩ v h) h' (ix3 i j k) = v (ix2 i j) := by
  refine (broadcastTo_apply _ h' (ix3 i j k) (ix3 i j (0 : Fin 1)) fun ax => ?_).trans ?_
  · match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl
  · exact shapeCast_apply v h _ _ (by
      rw [Shape.rowMajor_val_two, Shape.rowMajor_val_three]
      show i.val * b + j.val = (i.val * b + j.val) * 1 + 0
      omega)

/-- An `[a, n]` array given a middle unit axis and repeated along it to `[a, b, n]` reads, at `(i, j, k)`, the
    operand at `(i, k)`. -/
theorem stretchMiddle_apply {a b n : ℕ} (v : (⟨2, ![a, n]⟩ : Shape).Idx → α)
    (h : (⟨2, ![a, n]⟩ : Shape).ShapeCasts ⟨3, ![a, 1, n]⟩)
    (h' : (⟨3, ![a, 1, n]⟩ : Shape).Broadcasts ⟨3, ![a, b, n]⟩) (i : Fin a) (j : Fin b) (k : Fin n) :
    broadcastTo ⟨3, ![a, b, n]⟩ (shapeCast ⟨3, ![a, 1, n]⟩ v h) h' (ix3 i j k) = v (ix2 i k) := by
  refine (broadcastTo_apply _ h' (ix3 i j k) (ix3 i (0 : Fin 1) k) fun ax => ?_).trans ?_
  · match ax with
    | ⟨0, _⟩ =>
      show i.val = if a = 1 then 0 else i.val
      split
      · have := i.isLt; omega
      · rfl
    | ⟨1, _⟩ => rfl
    | ⟨2, _⟩ =>
      show k.val = if n = 1 then 0 else k.val
      split
      · have := k.isLt; omega
      · rfl
  · exact shapeCast_apply v h _ _ (by
      rw [Shape.rowMajor_val_two, Shape.rowMajor_val_three]
      show i.val * n + k.val = (i.val * 1 + 0) * n + k.val
      rw [Nat.mul_one, Nat.add_zero])

end Stretch

end Cert.LibStretch

end
-- ==== Proof.BlockMath.lean ====
/-
  What the kernel body computes from its loaded blocks, read at an index, on the extended reals.

  The body loads a [256, 16, 128] block of the per-group features, a [256, 1024] block of the per-row features, the four
  weight matrices already transposed (input-major, `w[k, o]`) and the four bias vectors as one-row matrices, and stores two
  blocks. Every matrix product accumulates into zero, so at an index it is the plain sum of products over the contracted
  axis; a change of float format is the identity; a cast to the same shape is the identity; a one-row matrix broadcast
  down the rows reads its one row; the mean is the sum over the middle axis divided by sixteen; folding the two leading
  axes [256, 16] into one of 4096 sends (p, g) to row 16 p + g, and unfolding sends it back. Each branch's gate is `mish`.
-/
import proofs.«107412_j8873402433731_1_alg».proof.Proof.Gen.KernelIdeal.Skeleton
import proofs.«107412_j8873402433731_1_alg».proof.Proof.Layer
import proofs.«107412_j8873402433731_1_alg».proof.Proof.LibStretch
import Idealize.ShloMosaic.Lib.Pipeline.Value
import Idealize.ShloMosaic.Lib.ValueIdx
import Idealize.ShloMosaic.Lib.ValueLayout
import Idealize.ShloMosaic.PureOps.Ideal.Laws

noncomputable section

namespace Cert.BlockMath

open Cert.KernelIdeal Cert.KernelIdeal.Gen Cert.Layer
open Idealize.ShloMosaic Idealize.ShloMosaic.ValueIdx

/-! ## The four matrix products -/

/-- The matrix product `[256, 1024] × [1024, 1024]` into a zero accumulator, read at `(p, o)`: the sum over the
    contracted axis of the products. -/
theorem dotRR_lhs0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem dotRR_rhs1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
theorem dotRR_apply (l : FVec Ideal S256x1024 .bf16) (r : FVec Ideal S1024x1024 .bf16) (p : Fin 256) (o : Fin 1024) :
    matmul dot_S256x1024_S1024x1024_S256x1024_1_0_0_1_n_n none l r (constant (F := Ideal) S256x1024 .f32 0x00000000#32) (ix2 p o)
      = ∑ k : Fin 1024, l (ix2 p k) * r (ix2 k o) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p o) ((ValueIdx.contrEquiv1 dot_S256x1024_S1024x1024_S256x1024_1_0_0_1_n_n 1024 rfl rfl).symm k) = ix2 p k := funext fun a => Fin.ext (by
    match a with
    | ⟨0, _⟩ => exact dotRR_lhs0 _ _
    | ⟨1, _⟩ => exact (dot_S256x1024_S1024x1024_S256x1024_1_0_0_1_n_n.lhsIdx_val_of_single rfl _ _).trans hk)
  have er : dot_S256x1024_S1024x1024_S256x1024_1_0_0_1_n_n.rhsIdx (ix2 p o) ((ValueIdx.contrEquiv1 dot_S256x1024_S1024x1024_S256x1024_1_0_0_1_n_n 1024 rfl rfl).symm k) = ix2 k o := funext fun a => Fin.ext (by
    match a with
    | ⟨0, _⟩ => exact (dot_S256x1024_S1024x1024_S256x1024_1_0_0_1_n_n.rhsIdx_val_of_single rfl _ _).trans hk
    | ⟨1, _⟩ => exact dotRR_rhs1 _ _)
  rw [el, er]

/-- The matrix product `[256, 1024] × [1024, 128]` into a zero accumulator, read at `(p, o)`: the sum over the
    contracted axis of the products. -/
theorem dotRB_lhs0 (i : S256x128.Idx) (q : dot_S256x1024_S1024x128_S256x128_1_0_0_1_n_n.contr.Idx) : (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem dotRB_rhs1 (i : S256x128.Idx) (q : dot_S256x1024_S1024x128_S256x128_1_0_0_1_n_n.contr.Idx) : (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl
theorem dotRB_apply (l : FVec Ideal S256x1024 .bf16) (r : FVec Ideal S1024x128 .bf16) (p : Fin 256) (o : Fin 128) :
    matmul dot_S256x1024_S1024x128_S256x128_1_0_0_1_n_n none l r (constant (F := Ideal) S256x128 .f32 0x00000000#32) (ix2 p o)
      = ∑ k : Fin 1024, l (ix2 p k) * r (ix2 k o) := by
  simp only [matmul]
  rw [Ideal.matmul_constant_zero_apply, ← Equiv.sum_comp (ValueIdx.contrEquiv1 dot_S256x1024_S1024x128_S256x128_1_0_0_1_n_n 1024 rfl rfl).symm]
  refine Finset.sum_congr rfl fun k _ => ?_
  have hk := ValueIdx.contrEquiv1_symm_val dot_S256x1024_S1024x128_S256x128_1_0_0_1_n_n 1024 rfl rfl k
  have el : dot_S256x1024_S1024x128_S256x128_1_0_0_1_n_n.lhsIdx (ix2 p o) ((ValueIdx.contrEquiv1 dot_S256x1024_S1024x128_S256x128_1_0_0_1_n_n 1024 rfl rfl).symm k) = ix2 p k := funext fun a => Fin.ext (by
    match a with
    | ⟨0, _⟩ => exact dotRB_lhs0 _ _
    | ⟨1, _⟩ => exact (dot_S256x1024_S1024x128_S256x128_1_0_0_1_n_n.lhsIdx_val_of_single rfl _ _).trans hk)
  have er : dot_S256x1024_S1024x128_S256x128_1_0_0_1_n_n.rhsIdx (ix2 p o) ((ValueIdx.contrEquiv1 dot_S256x1024_S1024x128_S256x128_1_0_0_1_n_n 1024 rfl rfl).symm k) = ix2 k o := funext fun a => Fin.ext (by
    match a with
    | ⟨0, _⟩ => exact (dot_S256x1024_S1024x128_S256x128_1_0_0_1_n_n.rhsIdx_val_of_single rfl _ _).trans hk
    | ⟨1, _⟩ => exact dotRB_rhs1 _ _)
  rw [el, er]

/-- The matrix product `[256, 128] × [128, 1024]` into a zero accumulator, read at `(p, o)`: the sum over the
    contracted axis of the products. -/
theorem dotBR_lhs0 (i : S256x1024.Idx) (q : dot_S256x128_S128x1024_S256x1024_1_0_0_1_n_n.contr.Idx) : (dot_S256x128_S128x1024_S256x1024_1_0_0_1_n_n.lhsIdx i q 0).val = (i 0).val := by
  unfold DotDims.lhsIdx
  rw [dif_neg (show ¬(0 : Fin S256x128.rank) ∈ dot_S256x128_S128x1024_S256x1024_1_0_0_1_n_n.lhsBatch by decide), dif_pos (show (0 : Fin S256x128.rank) ∈ dot_S256x128_S128x1024_S256x1024_1_0_0_1_n_n.lhsNonContracting by decide)]
  rfl
theorem dotBR_rhs1 (i : S256x1024.Idx) (q : dot_S256x128_S128x1024_S256x1024_1_0_0_1_n_n.contr.Idx) : (dot_S256x128_S128x1024_S256x1024_1_0_0_1_n_n.rhsIdx i q 1).val = (i 1).val := by
  unfold DotDims.rhsIdx
  rw [dif_neg (show ¬(1 : Fin S128x1024.rank) ∈ dot_S256x128_S128x1024_S256x1024_1_0_0_1_n_n.rhsBatch by decide), dif_pos (show (1 : Fin S128x1024.rank) ∈ dot_S256x128_S128x1024_S256x1024_1_0_0_1_n_n.rhsNonContracting by decide)]
  rfl
theorem dotBR_apply (l : FVec Ideal S256x128 .bf16) (r : FVec Ideal S128x1024 .bf16) (p : Fin 256) (o : Fin 1024) :
    matmul dot_S256x128_S128x1024_S256x1024_1_0_0_1_n_n none l r (constant (F := Ideal) S256x1024 .f32 0x00000000#32) (ix2 p o)
      = ∑ k : Fin 128, l (ix2 p k) * r (ix2 k o) := by
  simp only [matmul]
  rw [Ideal.matmul_constant_zero_apply, ← Equiv.sum_comp (ValueIdx.contrEquiv1 dot_S256x128_S128x1024_S256x1024_1_0_0_1_n_n 128 rfl rfl).symm]
  refine Finset.sum_congr rfl fun k _ => ?_
  have hk := ValueIdx.contrEquiv1_symm_val dot_S256x128_S128x1024_S256x1024_1_0_0_1_n_n 128 rfl rfl k
  have el : dot_S256x128_S128x1024_S256x1024_1_0_0_1_n_n.lhsIdx (ix2 p o) ((ValueIdx.contrEquiv1 dot_S256x128_S128x1024_S256x1024_1_0_0_1_n_n 128 rfl rfl).symm k) = ix2 p k := funext fun a => Fin.ext (by
    match a with
    | ⟨0, _⟩ => exact dotBR_lhs0 _ _
    | ⟨1, _⟩ => exact (dot_S256x128_S128x1024_S256x1024_1_0_0_1_n_n.lhsIdx_val_of_single rfl _ _).trans hk)
  have er : dot_S256x128_S128x1024_S256x1024_1_0_0_1_n_n.rhsIdx (ix2 p o) ((ValueIdx.contrEquiv1 dot_S256x128_S128x1024_S256x1024_1_0_0_1_n_n 128 rfl rfl).symm k) = ix2 k o := funext fun a => Fin.ext (by
    match a with
    | ⟨0, _⟩ => exact (dot_S256x128_S128x1024_S256x1024_1_0_0_1_n_n.rhsIdx_val_of_single rfl _ _).trans hk
    | ⟨1, _⟩ => exact dotBR_rhs1 _ _)
  rw [el, er]

/-- The matrix product `[4096, 128] × [128, 128]` into a zero accumulator, read at `(p, o)`: the sum over the
    contracted axis of the products. -/
theorem dotBB_lhs0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem dotBB_rhs1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl
theorem dotBB_apply (l : FVec Ideal S4096x128 .bf16) (r : FVec Ideal S128x128 .bf16) (p : Fin 4096) (o : Fin 128) :
    matmul dot_S4096x128_S128x128_S4096x128_1_0_0_1_n_n none l r (constant (F := Ideal) S4096x128 .f32 0x00000000#32) (ix2 p o)
      = ∑ k : Fin 128, l (ix2 p k) * r (ix2 k o) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p o) ((ValueIdx.contrEquiv1 dot_S4096x128_S128x128_S4096x128_1_0_0_1_n_n 128 rfl rfl).symm k) = ix2 p k := funext fun a => Fin.ext (by
    match a with
    | ⟨0, _⟩ => exact dotBB_lhs0 _ _
    | ⟨1, _⟩ => exact (dot_S4096x128_S128x128_S4096x128_1_0_0_1_n_n.lhsIdx_val_of_single rfl _ _).trans hk)
  have er : dot_S4096x128_S128x128_S4096x128_1_0_0_1_n_n.rhsIdx (ix2 p o) ((ValueIdx.contrEquiv1 dot_S4096x128_S128x128_S4096x128_1_0_0_1_n_n 128 rfl rfl).symm k) = ix2 k o := funext fun a => Fin.ext (by
    match a with
    | ⟨0, _⟩ => exact (dot_S4096x128_S128x128_S4096x128_1_0_0_1_n_n.rhsIdx_val_of_single rfl _ _).trans hk
    | ⟨1, _⟩ => exact dotBB_rhs1 _ _)
  rw [el, er]

/-! ## The affine parts at an index -/

/-- `rf → rf` on a block: row `p` of the block against column `o` of the transposed weights, plus the bias row. -/
theorem affineRR_apply (v1 : Vec Ideal S256x1024 .f32) (v2 : Vec Ideal S1024x1024 .bf16) (v6 : Vec Ideal S1x1024 .f32)
    (p : Fin 256) (o : Fin 1024) :
    k0_pay12 (F := Ideal) v1 v2 v6 (ix2 p o) = (∑ k : Fin 1024, v1 (ix2 p k) * v2 (ix2 k o)) + v6 (ix2 (0 : Fin 1) o) := by
  unfold k0_pay12 k0_pay3
  try dsimp only
  rw [addf_apply, dotRR_apply, shapeCast_self, shapeCast_self, broadcastTo_1b_ab_apply]
  rfl

/-- The sum over the sixteen groups at `(p, k)` (an addition-reduction over the middle axis, from zero). -/
theorem groupSum_apply (v0 : Vec Ideal S256x16x128 .f32) (hφ : FKind.Formats .f32) (hacc : (0x00000000#32 : BitVec 32) = 0x00000000#32)
    (p : Fin 256) (k : Fin 128) :
    multiReduction (F := Ideal) .add [1] S256x128 v0 0x00000000#32 reduces_S256x16x128_S256x128 hφ hacc (ix2 p k) = ∑ g : Fin 16, v0 (ix3 p g k) := by
  refine (Ideal.multiReduction_add_single v0 0x00000000#32 reduces_S256x16x128_S256x128 hφ hacc (ix2 p k)).trans ?_
  refine Finset.sum_congr rfl fun g _ => congrArg v0 ?_
  exact funext fun a => Fin.ext (by match a with | ⟨0, _⟩ => rfl | ⟨1, _⟩ => rfl | ⟨2, _⟩ => rfl)

/-- The block's group mean at `(p, k)`. -/
theorem mean_apply (v0 : Vec Ideal S256x16x128 .f32) (p : Fin 256) (k : Fin 128) :
    k0_pay4 (F := Ideal) v0 (ix2 p k) = Ideal.div (∑ g : Fin 16, v0 (ix3 p g k)) (Ideal.ofBits .f32 0x41800000#32) := by
  unfold k0_pay4
  try dsimp only
  rw [truncf_apply, divf_apply]
  exact congrArg₂ Ideal.div (groupSum_apply v0 _ _ p k) rfl

/-- `bb → rf` on a block, of the group mean, before the gate. -/
theorem affineBR_apply (v6' : FVec Ideal S256x128 .bf16) (v13 : FVec Ideal S128x1024 .bf16) (v21 : FVec Ideal S1x1024 .f32)
    (p : Fin 256) (o : Fin 1024) :
    addf (matmul dot_S256x128_S128x1024_S256x1024_1_0_0_1_n_n none v6' v13 (constant (F := Ideal) S256x1024 .f32 0x00000000#32))
        (broadcastTo S256x1024 v21 broadcasts_S1x1024_S256x1024) (ix2 p o)
      = (∑ k : Fin 128, v6' (ix2 p k) * v13 (ix2 k o)) + v21 (ix2 (0 : Fin 1) o) := by
  rw [addf_apply, dotBR_apply, broadcastTo_1b_ab_apply]

/-- `rf → bb` on a block, before the gate. -/
theorem affineRB_apply (v5 : FVec Ideal S256x1024 .bf16) (v11 : FVec Ideal S1024x128 .bf16) (v19 : FVec Ideal S1x128 .f32)
    (p : Fin 256) (o : Fin 128) :
    addf (matmul dot_S256x1024_S1024x128_S256x128_1_0_0_1_n_n none v5 v11 (constant (F := Ideal) S256x128 .f32 0x00000000#32))
        (broadcastTo S256x128 v19 broadcasts_S1x128_S256x128) (ix2 p o)
      = (∑ k : Fin 1024, v5 (ix2 p k) * v11 (ix2 k o)) + v19 (ix2 (0 : Fin 1) o) := by
  rw [addf_apply, dotRB_apply, broadcastTo_1b_ab_apply]

/-- `bb → bb` on the block folded to 4096 rows: row `r` against column `o`, plus the bias row. -/
theorem affineBB_apply (v7 : FVec Ideal S256x16x128 .bf16) (v15 : FVec Ideal S128x128 .bf16) (v23 : FVec Ideal S1x128 .f32)
    (p : Fin 256) (g : Fin 16) (o : Fin 128) (r : Fin 4096) (hr : r.val = p.val * 16 + g.val) :
    k0_pay20 (F := Ideal) v7 v15 v23 (ix2 r o) = (∑ i : Fin 128, v7 (ix3 p g i) * v15 (ix2 i o)) + v23 (ix2 (0 : Fin 1) o) := by
  unfold k0_pay20
  try dsimp only
  rw [addf_apply, dotBB_apply, broadcastTo_1b_ab_apply]
  refine congrArg₂ (· + ·) (Finset.sum_congr rfl fun i _ => congrArg₂ (· * ·) ?_ rfl) rfl
  refine shapeCast_apply v7 shapeCasts_S256x16x128_S4096x128 (ix2 r i) (ix3 p g i) ?_
  rw [Shape.rowMajor_val_three, Shape.rowMajor_val_two]
  show (p.val * 16 + g.val) * 128 + i.val = r.val * 128 + i.val
  rw [hr]

/-! ## The gates -/

theorem gateRR_apply (v1 : Vec Ideal S256x1024 .f32) (v2 : Vec Ideal S1024x1024 .bf16) (v6 : Vec Ideal S1x1024 .f32) (i : S256x1024.Idx) :
    k0_pay17 (F := Ideal) (k0_pay12 v1 v2 v6) (k0_pay13 v1 v2 v6) (k0_pay14 v1 v2 v6) (k0_pay15 v1 v2 v6) (k0_pay16 v1 v2 v6) i
      = mish (k0_pay12 (F := Ideal) v1 v2 v6 i) :=
  mish_guard_sub (k0_pay12 (F := Ideal) v1 v2 v6 i)

theorem gateBR_apply (v6' : FVec Ideal S256x128 .bf16) (v13 : FVec Ideal S128x1024 .bf16) (v21 : FVec Ideal S1x1024 .f32) (i : S256x1024.Idx) :
    k0_pay19 (F := Ideal) v6' v13 v21 i
      = mish (addf (matmul dot_S256x128_S128x1024_S256x1024_1_0_0_1_n_n none v6' v13 (constant (F := Ideal) S256x1024 .f32 0x00000000#32))
          (broadcastTo S256x1024 v21 broadcasts_S1x1024_S256x1024) i) :=
  mish_guard_sub _

theorem gateRB_apply (v5 : FVec Ideal S256x1024 .bf16) (v11 : FVec Ideal S1024x128 .bf16) (v19 : FVec Ideal S1x128 .f32) (i : S256x128.Idx) :
    k0_pay18 (F := Ideal) v5 v11 v19 i
      = mish (addf (matmul dot_S256x1024_S1024x128_S256x128_1_0_0_1_n_n none v5 v11 (constant (F := Ideal) S256x128 .f32 0x00000000#32))
          (broadcastTo S256x128 v19 broadcasts_S1x128_S256x128) i) :=
  mish_guard_sub _

/-! ## The two stored blocks -/

/-- The per-row block at `(p, o)`. -/
theorem rfBlock_apply (v0 : Vec Ideal S256x16x128 .f32) (v1 : Vec Ideal S256x1024 .f32) (v2 : Vec Ideal S1024x1024 .bf16)
    (v4 : Vec Ideal S128x1024 .bf16) (v6 v8 : Vec Ideal S1x1024 .f32) (p : Fin 256) (o : Fin 1024) :
    k0_pay1 (F := Ideal) (k0_pay17 (k0_pay12 v1 v2 v6) (k0_pay13 v1 v2 v6) (k0_pay14 v1 v2 v6) (k0_pay15 v1 v2 v6) (k0_pay16 v1 v2 v6))
        (k0_pay19 (k0_pay4 v0) (k0_pay7 v4) (k0_pay10 v8)) (ix2 p o)
      = mish ((∑ k : Fin 1024, v1 (ix2 p k) * v2 (ix2 k o)) + v6 (ix2 (0 : Fin 1) o))
        + mish ((∑ k : Fin 128, Ideal.div (∑ g : Fin 16, v0 (ix3 p g k)) (Ideal.ofBits .f32 0x41800000#32) * v4 (ix2 k o))
            + v8 (ix2 (0 : Fin 1) o)) := by
  unfold k0_pay1
  try dsimp only
  rw [addf_apply, gateRR_apply, affineRR_apply, gateBR_apply, affineBR_apply]
  unfold k0_pay7 k0_pay10
  try dsimp only
  rw [shapeCast_self, shapeCast_self]
  refine congrArg₂ (· + ·) rfl (congrArg mish (congrArg₂ (· + ·) (Finset.sum_congr rfl fun k _ => ?_) rfl))
  rw [mean_apply]

/-- The per-group block at `(p, g, o)`. -/
theorem bbBlock_apply (v0 : Vec Ideal S256x16x128 .f32) (v1 : Vec Ideal S256x1024 .f32) (v3 : Vec Ideal S1024x128 .bf16)
    (v5 : Vec Ideal S128x128 .bf16) (v7 v9 : Vec Ideal S1x128 .f32) (p : Fin 256) (g : Fin 16) (o : Fin 128) :
    k0_pay2 (F := Ideal) (k0_pay18 (k0_pay3 v1) (k0_pay6 v3) (k0_pay9 v7)) (k0_pay20 (k0_pay5 v0) (k0_pay8 v5) (k0_pay11 v9))
        (Scalar.ofBits .f32 0x00000000#32) (ix3 p g o)
      = mish ((∑ i : Fin 128, v0 (ix3 p g i) * v5 (ix2 i o)) + v9 (ix2 (0 : Fin 1) o))
        + mish ((∑ k : Fin 1024, v1 (ix2 p k) * v3 (ix2 k o)) + v7 (ix2 (0 : Fin 1) o)) := by
  have hr : (p.val * 16 + g.val) < 4096 := by have := p.isLt; have := g.isLt; omega
  unfold k0_pay2
  try dsimp only
  rw [addf_apply]
  refine congrArg₂ (· + ·) ?_ ?_
  · -- the gated `bb → bb` value, unfolded from 4096 rows back to (p, g)
    refine (shapeCast_apply _ shapeCasts_S4096x128_S256x16x128 (ix3 p g o) (ix2 (⟨p.val * 16 + g.val, hr⟩ : Fin 4096) o) ?_).trans ?_
    · rw [Shape.rowMajor_val_three, Shape.rowMajor_val_two]
      rfl
    · refine (mish_guard_sub (k0_pay20 (F := Ideal) (k0_pay5 v0) (k0_pay8 v5) (k0_pay11 v9) (ix2 (⟨p.val * 16 + g.val, hr⟩ : Fin 4096) o))).trans ?_
      rw [affineBB_apply (k0_pay5 v0) (k0_pay8 v5) (k0_pay11 v9) p g o ⟨p.val * 16 + g.val, hr⟩ rfl]
      unfold k0_pay5 k0_pay8 k0_pay11
      try dsimp only
      rw [shapeCast_self, shapeCast_self]
      rfl
  · -- the gated `rf → bb` value, repeated along the group axis
    rw [shapeCast_self, Cert.LibStretch.stretchMiddle_apply, gateRB_apply, affineRB_apply]
    unfold k0_pay3 k0_pay6 k0_pay9
    try dsimp only
    rw [shapeCast_self, shapeCast_self]
    rfl

end Cert.BlockMath

end
-- ==== Proof.ArgBlocks.lean ====
/-
  Each window's block at a grid point, read at an index, as an entry of the argument arrays.

  The grid has sixteen points; point `t` takes rows `256 t … 256 t + 255` of the two feature arrays and of the two
  results, and the whole of every weight matrix and bias row. The weight matrices reach the kernel transposed by the
  host (entry `(k, o)` of what is staged is entry `(o, k)` of the argument) and the biases as one-row matrices.
-/
import proofs.«107412_j8873402433731_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.ArgBlocks

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## Where each window's block sits at a point (decided over the sixteen points) -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-! ## The two feature blocks -/

/-- Block `t` of the per-group features: row `p` of the block is row `256 t + p` of the argument. -/
theorem blk0_apply (c : Dev nD) (t : Fin cfg0.N) (p : Fin 256) (g : Fin 16) (i : Fin 128) (b : Fin 4096)
    (hb : b.val = 256 * t.val + p.val) :
    (iblk m c 0 t : Vec Ideal S256x16x128 .f32) (ix3 p g i) = m ((c : Thread nD τ).loc main_arg0) (ix3 b g i) := by
  obtain ⟨e0, e1, e2⟩ := idx0 t
  unfold iblk
  rw [View.read_apply]
  have hi : ((cfg0.win 0).blk t).view.emb (ix3 p g i) = ix3 b g i := funext fun a => Fin.ext (by
    match a with
    | ⟨0, _⟩ => show win0_0.index t (0 : Fin 3) * 256 + 1 * p.val = b.val; rw [e0, hb]; omega
    | ⟨1, _⟩ => show win0_0.index t (1 : Fin 3) * 16 + 1 * g.val = g.val; rw [e1]; omega
    | ⟨2, _⟩ => show win0_0.index t (2 : Fin 3) * 128 + 1 * i.val = i.val; rw [e2]; omega)
  show V m c main_arg0 (((cfg0.win 0).blk t).view.emb (ix3 p g i)) = _
  rw [hi, V_main_arg0]

/-- Block `t` of the per-row features. -/
theorem blk1_apply (c : Dev nD) (t : Fin cfg0.N) (p : Fin 256) (k : Fin 1024) (b : Fin 4096)
    (hb : b.val = 256 * t.val + p.val) :
    (iblk m c 1 t : Vec Ideal S256x1024 .f32) (ix2 p k) = m ((c : Thread nD τ).loc main_arg1) (ix2 b k) := by
  obtain ⟨e0, e1⟩ := idx1 t
  unfold iblk
  rw [View.read_apply]
  have hi : ((cfg0.win 1).blk t).view.emb (ix2 p k) = ix2 b k := funext fun a => Fin.ext (by
    match a with
    | ⟨0, _⟩ => show win0_1.index t (0 : Fin 2) * 256 + 1 * p.val = b.val; rw [e0, hb]; omega
    | ⟨1, _⟩ => show win0_1.index t (1 : Fin 2) * 1024 + 1 * k.val = k.val; rw [e1]; omega)
  show V m c main_arg1 (((cfg0.win 1).blk t).view.emb (ix2 p k)) = _
  rw [hi, V_main_arg1]

/-! ## The weights, as the host transposed them -/

/-- The array window 2 stages is `main_arg4` transposed (and re-formatted, which changes nothing): entry `(k, o)` is `main_arg4[o, k]`. -/
theorem hostT2_apply (c : Dev nD) (k : Fin 1024) (o : Fin 1024) :
    (V m c main_v1 : Vec Ideal S1024x1024 .bf16) (ix2 k o) = m ((c : Thread nD τ).loc main_arg4) (ix2 o k) := by
  have e : (V m c main_v1 : Vec Ideal S1024x1024 .bf16)
      = truncf (F := Ideal) .bf16 (transpose S1024x1024 [1, 0] (m ((c : Thread nD τ).loc main_arg4)) transposes_S1024x1024_S1024x1024_1_0) bitsLt_bf16_f32 := by
    dsimp only [V, hostOps0]; after_results
  rw [e, truncf_apply]
  exact transpose_ix2_apply _ _ k o

/-- Window 2's block is the whole array at every point. -/
theorem blk2_apply (c : Dev nD) (t : Fin cfg0.N) (k : Fin 1024) (o : Fin 1024) :
    (iblk m c 2 t : Vec Ideal S1024x1024 .bf16) (ix2 k o) = m ((c : Thread nD τ).loc main_arg4) (ix2 o k) := by
  obtain ⟨e0, e1⟩ := idx2 t
  unfold iblk
  rw [View.read_apply]
  have hi : ((cfg0.win 2).blk t).view.emb (ix2 k o) = ix2 k o := funext fun a => Fin.ext (by
    match a with
    | ⟨0, _⟩ => show win0_2.index t (0 : Fin 2) * 1024 + 1 * k.val = k.val; rw [e0]; omega
    | ⟨1, _⟩ => show win0_2.index t (1 : Fin 2) * 1024 + 1 * o.val = o.val; rw [e1]; omega)
  show V m c main_v1 (((cfg0.win 2).blk t).view.emb (ix2 k o)) = _
  rw [hi]
  exact hostT2_apply m c k o

/-- The array window 3 stages is `main_arg2` transposed (and re-formatted, which changes nothing): entry `(k, o)` is `main_arg2[o, k]`. -/
theorem hostT3_apply (c : Dev nD) (k : Fin 1024) (o : Fin 128) :
    (V m c main_v3 : Vec Ideal S1024x128 .bf16) (ix2 k o) = m ((c : Thread nD τ).loc main_arg2) (ix2 o k) := by
  have e : (V m c main_v3 : Vec Ideal S1024x128 .bf16)
      = truncf (F := Ideal) .bf16 (transpose S1024x128 [1, 0] (m ((c : Thread nD τ).loc main_arg2)) transposes_S128x1024_S1024x128_1_0) bitsLt_bf16_f32 := by
    dsimp only [V, hostOps0]; after_results
  rw [e, truncf_apply]
  exact transpose_ix2_apply _ _ k o

/-- Window 3's block is the whole array at every point. -/
theorem blk3_apply (c : Dev nD) (t : Fin cfg0.N) (k : Fin 1024) (o : Fin 128) :
    (iblk m c 3 t : Vec Ideal S1024x128 .bf16) (ix2 k o) = m ((c : Thread nD τ).loc main_arg2) (ix2 o k) := by
  obtain ⟨e0, e1⟩ := idx3 t
  unfold iblk
  rw [View.read_apply]
  have hi : ((cfg0.win 3).blk t).view.emb (ix2 k o) = ix2 k o := funext fun a => Fin.ext (by
    match a with
    | ⟨0, _⟩ => show win0_3.index t (0 : Fin 2) * 1024 + 1 * k.val = k.val; rw [e0]; omega
    | ⟨1, _⟩ => show win0_3.index t (1 : Fin 2) * 128 + 1 * o.val = o.val; rw [e1]; omega)
  show V m c main_v3 (((cfg0.win 3).blk t).view.emb (ix2 k o)) = _
  rw [hi]
  exact hostT3_apply m c k o

/-- The array window 4 stages is `main_arg6` transposed (and re-formatted, which changes nothing): entry `(k, o)` is `main_arg6[o, k]`. -/
theorem hostT4_apply (c : Dev nD) (k : Fin 128) (o : Fin 1024) :
    (V m c main_v5 : Vec Ideal S128x1024 .bf16) (ix2 k o) = m ((c : Thread nD τ).loc main_arg6) (ix2 o k) := by
  have e : (V m c main_v5 : Vec Ideal S128x1024 .bf16)
      = truncf (F := Ideal) .bf16 (transpose S128x1024 [1, 0] (m ((c : Thread nD τ).loc main_arg6)) transposes_S1024x128_S128x1024_1_0) bitsLt_bf16_f32 := by
    dsimp only [V, hostOps0]; after_results
  rw [e, truncf_apply]
  exact transpose_ix2_apply _ _ k o

/-- Window 4's block is the whole array at every point. -/
theorem blk4_apply (c : Dev nD) (t : Fin cfg0.N) (k : Fin 128) (o : Fin 1024) :
    (iblk m c 4 t : Vec Ideal S128x1024 .bf16) (ix2 k o) = m ((c : Thread nD τ).loc main_arg6) (ix2 o k) := by
  obtain ⟨e0, e1⟩ := idx4 t
  unfold iblk
  rw [View.read_apply]
  have hi : ((cfg0.win 4).blk t).view.emb (ix2 k o) = ix2 k o := funext fun a => Fin.ext (by
    match a with
    | ⟨0, _⟩ => show win0_4.index t (0 : Fin 2) * 128 + 1 * k.val = k.val; rw [e0]; omega
    | ⟨1, _⟩ => show win0_4.index t (1 : Fin 2) * 1024 + 1 * o.val = o.val; rw [e1]; omega)
  show V m c main_v5 (((cfg0.win 4).blk t).view.emb (ix2 k o)) = _
  rw [hi]
  exact hostT4_apply m c k o

/-- The array window 5 stages is `main_arg8` transposed (and re-formatted, which changes nothing): entry `(k, o)` is `main_arg8[o, k]`. -/
theorem hostT5_apply (c : Dev nD) (k : Fin 128) (o : Fin 128) :
    (V m c main_v7 : Vec Ideal S128x128 .bf16) (ix2 k o) = m ((c : Thread nD τ).loc main_arg8) (ix2 o k) := by
  have e : (V m c main_v7 : Vec Ideal S128x128 .bf16)
      = truncf (F := Ideal) .bf16 (transpose S128x128 [1, 0] (m ((c : Thread nD τ).loc main_arg8)) transposes_S128x128_S128x128_1_0) bitsLt_bf16_f32 := by
    dsimp only [V, hostOps0]; after_results
  rw [e, truncf_apply]
  exact transpose_ix2_apply _ _ k o

/-- Window 5's block is the whole array at every point. -/
theorem blk5_apply (c : Dev nD) (t : Fin cfg0.N) (k : Fin 128) (o : Fin 128) :
    (iblk m c 5 t : Vec Ideal S128x128 .bf16) (ix2 k o) = m ((c : Thread nD τ).loc main_arg8) (ix2 o k) := by
  obtain ⟨e0, e1⟩ := idx5 t
  unfold iblk
  rw [View.read_apply]
  have hi : ((cfg0.win 5).blk t).view.emb (ix2 k o) = ix2 k o := funext fun a => Fin.ext (by
    match a with
    | ⟨0, _⟩ => show win0_5.index t (0 : Fin 2) * 128 + 1 * k.val = k.val; rw [e0]; omega
    | ⟨1, _⟩ => show win0_5.index t (1 : Fin 2) * 128 + 1 * o.val = o.val; rw [e1]; omega)
  show V m c main_v7 (((cfg0.win 5).blk t).view.emb (ix2 k o)) = _
  rw [hi]
  exact hostT5_apply m c k o

/-! ## The biases, as one-row matrices -/

/-- The array window 6 stages is `main_arg5` as a one-row matrix. -/
theorem hostRow6_apply (c : Dev nD) (o : Fin 1024) :
    (V m c main_v8 : Vec Ideal S1x1024 .f32) (ix2 (0 : Fin 1) o) = m ((c : Thread nD τ).loc main_arg5) (ix1 o) := by
  have e : (V m c main_v8 : Vec Ideal S1x1024 .f32) = shapeCast S1x1024 (m ((c : Thread nD τ).loc main_arg5)) shapeCasts_S1024_S1x1024 := by
    dsimp only [V, hostOps0]; after_results; rfl
  rw [e]
  exact shapeCast_a_1a_apply _ _ 0 o

/-- Window 6's block is that row at every point. -/
theorem blk6_apply (c : Dev nD) (t : Fin cfg0.N) (o : Fin 1024) :
    (iblk m c 6 t : Vec Ideal S1x1024 .f32) (ix2 (0 : Fin 1) o) = m ((c : Thread nD τ).loc main_arg5) (ix1 o) := by
  obtain ⟨e0, e1⟩ := idx6 t
  unfold iblk
  rw [View.read_apply]
  have hi : ((cfg0.win 6).blk t).view.emb (ix2 (0 : Fin 1) o) = ix2 (0 : Fin 1) o := funext fun a => Fin.ext (by
    match a with
    | ⟨0, _⟩ => show win0_6.index t (0 : Fin 2) * 1 + 1 * 0 = 0; rw [e0]
    | ⟨1, _⟩ => show win0_6.index t (1 : Fin 2) * 1024 + 1 * o.val = o.val; rw [e1]; omega)
  show V m c main_v8 (((cfg0.win 6).blk t).view.emb (ix2 (0 : Fin 1) o)) = _
  rw [hi]
  exact hostRow6_apply m c o

/-- The array window 7 stages is `main_arg3` as a one-row matrix. -/
theorem hostRow7_apply (c : Dev nD) (o : Fin 128) :
    (V m c main_v9 : Vec Ideal S1x128 .f32) (ix2 (0 : Fin 1) o) = m ((c : Thread nD τ).loc main_arg3) (ix1 o) := by
  have e : (V m c main_v9 : Vec Ideal S1x128 .f32) = shapeCast S1x128 (m ((c : Thread nD τ).loc main_arg3)) shapeCasts_S128_S1x128 := by
    dsimp only [V, hostOps0]; after_results; rfl
  rw [e]
  exact shapeCast_a_1a_apply _ _ 0 o

/-- Window 7's block is that row at every point. -/
theorem blk7_apply (c : Dev nD) (t : Fin cfg0.N) (o : Fin 128) :
    (iblk m c 7 t : Vec Ideal S1x128 .f32) (ix2 (0 : Fin 1) o) = m ((c : Thread nD τ).loc main_arg3) (ix1 o) := by
  obtain ⟨e0, e1⟩ := idx7 t
  unfold iblk
  rw [View.read_apply]
  have hi : ((cfg0.win 7).blk t).view.emb (ix2 (0 : Fin 1) o) = ix2 (0 : Fin 1) o := funext fun a => Fin.ext (by
    match a with
    | ⟨0, _⟩ => show win0_7.index t (0 : Fin 2) * 1 + 1 * 0 = 0; rw [e0]
    | ⟨1, _⟩ => show win0_7.index t (1 : Fin 2) * 128 + 1 * o.val = o.val; rw [e1]; omega)
  show V m c main_v9 (((cfg0.win 7).blk t).view.emb (ix2 (0 : Fin 1) o)) = _
  rw [hi]
  exact hostRow7_apply m c o

/-- The array window 8 stages is `main_arg7` as a one-row matrix. -/
theorem hostRow8_apply (c : Dev nD) (o : Fin 1024) :
    (V m c main_v10 : Vec Ideal S1x1024 .f32) (ix2 (0 : Fin 1) o) = m ((c : Thread nD τ).loc main_arg7) (ix1 o) := by
  have e : (V m c main_v10 : Vec Ideal S1x1024 .f32) = shapeCast S1x1024 (m ((c : Thread nD τ).loc main_arg7)) shapeCasts_S1024_S1x1024 := by
    dsimp only [V, hostOps0]; after_results; rfl
  rw [e]
  exact shapeCast_a_1a_apply _ _ 0 o

/-- Window 8's block is that row at every point. -/
theorem blk8_apply (c : Dev nD) (t : Fin cfg0.N) (o : Fin 1024) :
    (iblk m c 8 t : Vec Ideal S1x1024 .f32) (ix2 (0 : Fin 1) o) = m ((c : Thread nD τ).loc main_arg7) (ix1 o) := by
  obtain ⟨e0, e1⟩ := idx8 t
  unfold iblk
  rw [View.read_apply]
  have hi : ((cfg0.win 8).blk t).view.emb (ix2 (0 : Fin 1) o) = ix2 (0 : Fin 1) o := funext fun a => Fin.ext (by
    match a with
    | ⟨0, _⟩ => show win0_8.index t (0 : Fin 2) * 1 + 1 * 0 = 0; rw [e0]
    | ⟨1, _⟩ => show win0_8.index t (1 : Fin 2) * 1024 + 1 * o.val = o.val; rw [e1]; omega)
  show V m c main_v10 (((cfg0.win 8).blk t).view.emb (ix2 (0 : Fin 1) o)) = _
  rw [hi]
  exact hostRow8_apply m c o

/-- The array window 9 stages is `main_arg9` as a one-row matrix. -/
theorem hostRow9_apply (c : Dev nD) (o : Fin 128) :
    (V m c main_v11 : Vec Ideal S1x128 .f32) (ix2 (0 : Fin 1) o) = m ((c : Thread nD τ).loc main_arg9) (ix1 o) := by
  have e : (V m c main_v11 : Vec Ideal S1x128 .f32) = shapeCast S1x128 (m ((c : Thread nD τ).loc main_arg9)) shapeCasts_S128_S1x128 := by
    dsimp only [V, hostOps0]; after_results; rfl
  rw [e]
  exact shapeCast_a_1a_apply _ _ 0 o

/-- Window 9's block is that row at every point. -/
theorem blk9_apply (c : Dev nD) (t : Fin cfg0.N) (o : Fin 128) :
    (iblk m c 9 t : Vec Ideal S1x128 .f32) (ix2 (0 : Fin 1) o) = m ((c : Thread nD τ).loc main_arg9) (ix1 o) := by
  obtain ⟨e0, e1⟩ := idx9 t
  unfold iblk
  rw [View.read_apply]
  have hi : ((cfg0.win 9).blk t).view.emb (ix2 (0 : Fin 1) o) = ix2 (0 : Fin 1) o := funext fun a => Fin.ext (by
    match a with
    | ⟨0, _⟩ => show win0_9.index t (0 : Fin 2) * 1 + 1 * 0 = 0; rw [e0]
    | ⟨1, _⟩ => show win0_9.index t (1 : Fin 2) * 128 + 1 * o.val = o.val; rw [e1]; omega)
  show V m c main_v11 (((cfg0.win 9).blk t).view.emb (ix2 (0 : Fin 1) o)) = _
  rw [hi]
  exact hostRow9_apply m c o

end Cert.ArgBlocks

end
-- ==== Proof.Blocks.lean ====
/-
  From blocks to arrays: after the kernel's run its two result arrays hold the layer's `newBB` and `newRF` of the arguments.

  At grid point `t` the kernel writes back, for each result, the block of rows `256 t … 256 t + 255`; what it writes there is
  the layer's value at those rows (the body's arithmetic read at an index, with each loaded block read as rows of the
  arguments); the sixteen blocks cover all 4096 rows (row `r` lies in block `r / 256`), so each whole array is the layer's value.
-/
import proofs.«107412_j8873402433731_1_alg».proof.Proof.Gen.KernelIdeal.Frame
import proofs.«107412_j8873402433731_1_alg».proof.Proof.Layer
import proofs.«107412_j8873402433731_1_alg».proof.Proof.BlockMath
import proofs.«107412_j8873402433731_1_alg».proof.Proof.ArgBlocks
import Idealize.ShloMosaic.Lib.Pipeline.Value
import Idealize.ShloMosaic.Lib.ValueIdx

set_option maxRecDepth 16384

noncomputable section

namespace Cert.Blocks

open Cert.KernelIdeal Cert.KernelIdeal.Gen Cert.Layer Cert.ArgBlocks Cert.BlockMath
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The layer's new per-row features of the kernel's arguments on core `c`. -/
abbrev rfOf (c : Dev nD) : Buf (Elt Ideal) ((c : Thread nD τ).loc main_v12_1) :=
  newRF (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))

/-- The layer's new per-group features of the kernel's arguments on core `c`. -/
abbrev bbOf (c : Dev nD) : Buf (Elt Ideal) ((c : Thread nD τ).loc main_v12_0) :=
  newBB (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))

/-! ## What each point writes back -/

/-- Point `t` writes back block `t` of the new per-row features. -/
theorem flushedRF_eq (c : Dev nD) (t : Fin cfg0.N) :
    (dats m 0 c).flushed 11 t = ((cfg0.win 11).blk t).view.read (Elt Ideal) (rfOf m c) := by
  show (cfg0.win 11).cut (grid0.coords t) ((dats m 0 c).after 11 t) = _
  rw [after0_11]
  unfold out0_11
  rw [View.canon_unit_zero hz2]
  simp only [View.ld_unit_zero (S := S256x1024) hz2, View.ld_unit_zero (S := S1024x1024) hz2, View.ld_unit_zero (S := S1x1024) hz2,
    View.ld_unit_zero (S := S256x16x128) hz3, View.ld_unit_zero (S := S128x1024) hz2]
  obtain ⟨e0, e1⟩ := idx11 t
  have ht : t.val < 16 := lt_of_lt_of_eq t.isLt N_0
  refine funext fun (j : S256x1024.Idx) => ?_
  obtain ⟨p, o, rfl⟩ : ∃ (p : Fin 256) (o : Fin 1024), j = ix2 p o := ⟨j 0, j 1, eq_ix2 j⟩
  have hb : 256 * t.val + p.val < 4096 := by have := p.isLt; omega
  refine (rfBlock_apply (iblk m c 0 t) (iblk m c 1 t) (iblk m c 2 t) (iblk m c 4 t) (iblk m c 6 t) (iblk m c 8 t) p o).trans ?_
  have hi : ((cfg0.win 11).blk t).view.emb (ix2 p o) = ix2 (⟨256 * t.val + p.val, hb⟩ : Fin 4096) o := funext fun a => Fin.ext (by
    match a with
    | ⟨0, _⟩ => show win0_11.index t (0 : Fin 2) * 256 + 1 * p.val = 256 * t.val + p.val; rw [e0]; omega
    | ⟨1, _⟩ => show win0_11.index t (1 : Fin 2) * 1024 + 1 * o.val = o.val; rw [e1]; omega)
  show _ = rfOf m c (((cfg0.win 11).blk t).view.emb (ix2 p o))
  rw [hi]
  show _ = mish (rfToRf _ _ _ (⟨256 * t.val + p.val, hb⟩ : Fin 4096) o) + mish (bbToRf _ _ _ (⟨256 * t.val + p.val, hb⟩ : Fin 4096) o)
  unfold rfToRf bbToRf groupMean
  refine congrArg₂ (· + ·) (congrArg mish (congrArg₂ (· + ·) (Finset.sum_congr rfl fun k _ => ?_) ?_))
    (congrArg mish (congrArg₂ (· + ·) (Finset.sum_congr rfl fun k _ => ?_) ?_))
  · exact congrArg₂ (· * ·) (blk1_apply m c t p k _ rfl) (blk2_apply m c t k o)
  · exact blk6_apply m c t o
  · exact congrArg₂ (· * ·) (congrArg (Ideal.div · _) (Finset.sum_congr rfl fun g _ => blk0_apply m c t p g k _ rfl)) (blk4_apply m c t k o)
  · exact blk8_apply m c t o

/-- Point `t` writes back block `t` of the new per-group features. -/
theorem flushedBB_eq (c : Dev nD) (t : Fin cfg0.N) :
    (dats m 0 c).flushed 10 t = ((cfg0.win 10).blk t).view.read (Elt Ideal) (bbOf m c) := by
  show (cfg0.win 10).cut (grid0.coords t) ((dats m 0 c).after 10 t) = _
  rw [after0_10]
  unfold out0_10
  rw [View.canon_unit_zero hz3]
  simp only [View.ld_unit_zero (S := S256x1024) hz2, View.ld_unit_zero (S := S1024x128) hz2, View.ld_unit_zero (S := S1x128) hz2,
    View.ld_unit_zero (S := S256x16x128) hz3, View.ld_unit_zero (S := S128x128) hz2]
  obtain ⟨e0, e1, e2⟩ := idx10 t
  have ht : t.val < 16 := lt_of_lt_of_eq t.isLt N_0
  refine funext fun (j : S256x16x128.Idx) => ?_
  obtain ⟨p, g, o, rfl⟩ : ∃ (p : Fin 256) (g : Fin 16) (o : Fin 128), j = ix3 p g o := ⟨j 0, j 1, j 2, eq_ix3 j⟩
  have hb : 256 * t.val + p.val < 4096 := by have := p.isLt; omega
  refine (bbBlock_apply (iblk m c 0 t) (iblk m c 1 t) (iblk m c 3 t) (iblk m c 5 t) (iblk m c 7 t) (iblk m c 9 t) p g o).trans ?_
  have hi : ((cfg0.win 10).blk t).view.emb (ix3 p g o) = ix3 (⟨256 * t.val + p.val, hb⟩ : Fin 4096) g o := funext fun a => Fin.ext (by
    match a with
    | ⟨0, _⟩ => show win0_10.index t (0 : Fin 3) * 256 + 1 * p.val = 256 * t.val + p.val; rw [e0]; omega
    | ⟨1, _⟩ => show win0_10.index t (1 : Fin 3) * 16 + 1 * g.val = g.val; rw [e1]; omega
    | ⟨2, _⟩ => show win0_10.index t (2 : Fin 3) * 128 + 1 * o.val = o.val; rw [e2]; omega)
  show _ = bbOf m c (((cfg0.win 10).blk t).view.emb (ix3 p g o))
  rw [hi]
  show _ = mish (bbToBb _ _ _ (⟨256 * t.val + p.val, hb⟩ : Fin 4096) g o) + mish (rfToBb _ _ _ (⟨256 * t.val + p.val, hb⟩ : Fin 4096) o)
  unfold bbToBb rfToBb
  refine congrArg₂ (· + ·) (congrArg mish (congrArg₂ (· + ·) (Finset.sum_congr rfl fun i _ => ?_) ?_))
    (congrArg mish (congrArg₂ (· + ·) (Finset.sum_congr rfl fun k _ => ?_) ?_))
  · exact congrArg₂ (· * ·) (blk0_apply m c t p g i _ rfl) (blk5_apply m c t i o)
  · exact blk9_apply m c t o
  · exact congrArg₂ (· * ·) (blk1_apply m c t p k _ rfl) (blk3_apply m c t k o)
  · exact blk7_apply m c t o

/-! ## The blocks cover the arrays -/

/-- An index of the array is in point `t`'s block iff each coordinate is in the block's range on its axis. -/
theorem mem_blkRF (t : Fin cfg0.N) (i : S4096x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v12_1).slice (win0_11.rect t)).set ↔ _
  rw [View.set_slice_whole, Rect.mem_set_unit]
  exact Iff.rfl

/-- An index of the array is in point `t`'s block iff each coordinate is in the block's range on its axis. -/
theorem mem_blkBB (t : Fin cfg0.N) (i : S4096x16x128.Idx) :
    i ∈ ((cfg0.win 10).blk t).view.set ↔ ∀ a : Fin 3, win0_10.index t a * S256x16x128.size a ≤ (i a).val ∧ (i a).val < win0_10.index t a * S256x16x128.size a + S256x16x128.size a := by
  show i ∈ ((View.whole main_v12_0).slice (win0_10.rect t)).set ↔ _
  rw [View.set_slice_whole, Rect.mem_set_unit]
  exact Iff.rfl

/-- Row `r` of the per-row result lies in block `r / 256`. -/
theorem coverRF (i : S4096x1024.Idx) :
    ∃ t : Fin cfg0.N, (cfg0.win 11).flush t = true ∧ i ∈ ((cfg0.win 11).blk t).view.set := by
  have h0 : (i 0).val < 4096 := (i 0).isLt
  have h1 : (i 1).val < 1024 := (i 1).isLt
  have hq : (i 0).val / 256 < 16 := by omega
  refine ⟨⟨(i 0).val / 256, lt_of_lt_of_eq hq N_0.symm⟩, flush0_11 _, ?_⟩
  obtain ⟨e0, e1⟩ := idx11 ⟨(i 0).val / 256, lt_of_lt_of_eq hq N_0.symm⟩
  rw [mem_blkRF]
  intro a
  match a with
  | ⟨0, _⟩ =>
    show win0_11.index _ (0 : Fin 2) * 256 ≤ (i 0).val ∧ (i 0).val < win0_11.index _ (0 : Fin 2) * 256 + 256
    rw [e0]; show (i 0).val / 256 * 256 ≤ (i 0).val ∧ (i 0).val < (i 0).val / 256 * 256 + 256; omega
  | ⟨1, _⟩ =>
    show win0_11.index _ (1 : Fin 2) * 1024 ≤ (i 1).val ∧ (i 1).val < win0_11.index _ (1 : Fin 2) * 1024 + 1024
    rw [e1]; omega

/-- Row `r` of the per-group result lies in block `r / 256`. -/
theorem coverBB (i : S4096x16x128.Idx) :
    ∃ t : Fin cfg0.N, (cfg0.win 10).flush t = true ∧ i ∈ ((cfg0.win 10).blk t).view.set := by
  have h0 : (i 0).val < 4096 := (i 0).isLt
  have h1 : (i 1).val < 16 := (i 1).isLt
  have h2 : (i 2).val < 128 := (i 2).isLt
  have hq : (i 0).val / 256 < 16 := by omega
  refine ⟨⟨(i 0).val / 256, lt_of_lt_of_eq hq N_0.symm⟩, flush0_10 _, ?_⟩
  obtain ⟨e0, e1, e2⟩ := idx10 ⟨(i 0).val / 256, lt_of_lt_of_eq hq N_0.symm⟩
  rw [mem_blkBB]
  intro a
  match a with
  | ⟨0, _⟩ =>
    show win0_10.index _ (0 : Fin 3) * 256 ≤ (i 0).val ∧ (i 0).val < win0_10.index _ (0 : Fin 3) * 256 + 256
    rw [e0]; show (i 0).val / 256 * 256 ≤ (i 0).val ∧ (i 0).val < (i 0).val / 256 * 256 + 256; omega
  | ⟨1, _⟩ =>
    show win0_10.index _ (1 : Fin 3) * 16 ≤ (i 1).val ∧ (i 1).val < win0_10.index _ (1 : Fin 3) * 16 + 16
    rw [e1]; omega
  | ⟨2, _⟩ =>
    show win0_10.index _ (2 : Fin 3) * 128 ≤ (i 2).val ∧ (i 2).val < win0_10.index _ (2 : Fin 3) * 128 + 128
    rw [e2]; omega

/-! ## The arrays after the run -/

theorem finalRF (c : Dev nD) : (dats m 0 c).arrAt 11 cfg0.N = rfOf m c :=
  (dats m 0 c).arrAt_eq_of_cover 11 (rfOf m c) (fun t _ => flushedRF_eq m c t) coverRF

theorem finalBB (c : Dev nD) : (dats m 0 c).arrAt 10 cfg0.N = bbOf m c :=
  (dats m 0 c).arrAt_eq_of_cover 10 (bbOf m c) (fun t _ => flushedBB_eq m c t) coverBB

/-- The kernel's run, read: both results at the layer's values of the arguments, the arguments unchanged. -/
theorem run : θ_run defs (onTc (τ := τ) (main (F := Ideal))) ⟨m, fun _ => 0, ρ⟩ fun r => ∀ c : Dev nD,
      r.2.mem ((c : Thread nD τ).loc main_v12_0) = bbOf m c
      ∧ r.2.mem ((c : Thread nD τ).loc main_v12_1) = rfOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 10).trans (finalBB m c), ((h c).1 11).trans (finalRF m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.Blocks

end
-- ==== Proof.lean ====
/-
  A message-passing layer on two feature arrays, the kernel against its reference, on the extended reals.

  Both programs compute, from per-group features `bb[b, g, ·]` (sixteen groups per row) and per-row features `rf[b, ·]`,
      newRF[b, ·]    = mish (rf[b] Wrrᵀ + brr) + mish (mean_g bb[b, g] Wbrᵀ + bbr),
      newBB[b, g, ·] = mish (bb[b, g] Wbbᵀ + bbb) + mish (rf[b] Wrbᵀ + brb),
  with `mish z = z · tanh (softplus z)` (Proof/Layer.lean). The reference does so on whole arrays; the kernel on sixteen blocks
  of 256 rows, with the weights transposed beforehand and every matrix product accumulated from zero. On the extended reals a
  matrix product at an index is the sum of products over the contracted axis whichever program forms it, a change of float
  format is the identity, and the two programs' sums run over the same index sets in the same order, so no law beyond
  reading both sides at an index is needed and the finiteness of the inputs is never used.

  Proof/RefLayer.lean: the reference's results are the layer's; Proof/BlockMath.lean: the kernel body at an index;
  Proof/ArgBlocks.lean: each loaded block as entries of the arguments; Proof/Blocks.lean: the blocks tile the result arrays.
  The kernel's ideal pass rewrote nothing, so the idealized kernel is the kernel's own text and `preserves` is trivial.
-/
import proofs.«107412_j8873402433731_1_alg».proof.Defs
import proofs.«107412_j8873402433731_1_alg».proof.Proof.Gen.Kernel
import proofs.«107412_j8873402433731_1_alg».proof.Proof.Gen.Kernel.Skeleton
import proofs.«107412_j8873402433731_1_alg».proof.Proof.Gen.Kernel.Launch
import proofs.«107412_j8873402433731_1_alg».proof.Proof.Gen.Kernel.Points
import proofs.«107412_j8873402433731_1_alg».proof.Proof.Gen.Kernel.Frame
import proofs.«107412_j8873402433731_1_alg».proof.Proof.Gen.KernelIdeal
import proofs.«107412_j8873402433731_1_alg».proof.Proof.Gen.KernelIdeal.Skeleton
import proofs.«107412_j8873402433731_1_alg».proof.Proof.Gen.KernelIdeal.Launch
import proofs.«107412_j8873402433731_1_alg».proof.Proof.Gen.KernelIdeal.Points
import proofs.«107412_j8873402433731_1_alg».proof.Proof.Gen.KernelIdeal.Frame
import proofs.«107412_j8873402433731_1_alg».proof.Proof.Gen.ReferenceIdeal
import proofs.«107412_j8873402433731_1_alg».proof.Proof.Gen.Pre_finite_inputs
import proofs.«107412_j8873402433731_1_alg».proof.Proof.Gen.ReferenceIdeal.Run
import proofs.«107412_j8873402433731_1_alg».proof.Proof.Gen.ReferenceIdeal.Read
import proofs.«107412_j8873402433731_1_alg».proof.Proof.Layer
import proofs.«107412_j8873402433731_1_alg».proof.Proof.RefLayer
import proofs.«107412_j8873402433731_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the ten arguments both programs end with the layer's `newBB` and `newRF` of them. -/
theorem algebraic : Cert.algebraic_KernelIdeal_ReferenceIdeal := by
  intro m ρ m' ρ' _ hagree
  refine ⟨fun c => Cert.Blocks.bbOf m c, fun c => Cert.Blocks.rfOf m c, Cert.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2⟩
  · rw [Cert.ReferenceIdeal.Read.val_main_v37_eq, Cert.RefLayer.newBB_eq, a0, a1, a2, a3, a8, a9]
  · rw [Cert.ReferenceIdeal.Read.val_main_v34_eq, Cert.RefLayer.newRF_eq, a0, a1, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
